-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1x2048x128 : Shape := ⟨3, ![1, 2048, 128]⟩
abbrev S1x1024x1 : Shape := ⟨3, ![1, 1024, 1]⟩
abbrev S1x1024x2048 : Shape := ⟨3, ![1, 1024, 2048]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 1], ![false, false, false]⟩

def k0_cond2 (i : grid0.Coords) : BitVec 1 :=
  let arg2 : BitVec 32 := BitVec.ofNat 32 (i 2).val
  let c0_i32_34 : BitVec 32 := 0#32
  let v45 : BitVec 1 := Scalar.cmpi .eq arg2 c0_i32_34
  let v46 : BitVec 32 := Scalar.extui v45
  let c0_i32_35 : BitVec 32 := 0#32
  let v47 : BitVec 1 := Scalar.cmpi .ne v46 c0_i32_35
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x128_S32x2048x128 : S2x16x2048x128.ShapeCasts S32x2048x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S1x2048x128 : S1x2048x128.ShapeCasts S1x2048x128
  reduces_S1x1024x2048_S1x1024 : S1x1024x2048.Reduces [2] S1x1024
  shapeCasts_S1x1024_S1x1024x1 : S1x1024.ShapeCasts S1x1024x1
  broadcasts_S1x1024x1_S1x1024x2048 : S1x1024x1.Broadcasts S1x1024x2048
  broadcasts_S1x1024x1_S1x1024x128 : S1x1024x1.Broadcasts S1x1024x128
  shapeCasts_S32x2048x128_S2x16x2048x128 : S32x2048x128.ShapeCasts S2x16x2048x128
  dot_S1x1024x128_S1x2048x128_S1x1024x2048_2_2_1_1_0_0_wf : DotDims.WF S1x1024x128 S1x2048x128 S1x1024x2048 [2] [2] [1] [1] [0] [0]
  dot_S1x1024x2048_S1x2048x128_S1x1024x128_2_1_1_2_0_0_wf : DotDims.WF S1x1024x2048 S1x2048x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1x1024x128_S1x2048x128_S1x1024x2048_2_2_1_1_0_0 : DotDims S1x1024x128 S1x2048x128 S1x1024x2048 where
  lhsContracting := [2]
  rhsContracting := [2]
  lhsNonContracting := [1]
  rhsNonContracting := [1]
  lhsBatch := [0]
  rhsBatch := [0]
  wf := dot_S1x1024x128_S1x2048x128_S1x1024x2048_2_2_1_1_0_0_wf
def dot_S1x1024x2048_S1x2048x128_S1x1024x128_2_1_1_2_0_0 : DotDims S1x1024x2048 S1x2048x128 S1x1024x128 where
  lhsContracting := [2]
  rhsContracting := [1]
  lhsNonContracting := [1]
  rhsNonContracting := [2]
  lhsBatch := [0]
  rhsBatch := [0]
  wf := dot_S1x1024x2048_S1x2048x128_S1x1024x128_2_1_1_2_0_0_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.LibAttention.lean ====
/-
  One entry of an attention output, as a function of one query row, the content keys, the positional keys and one
  column of the values, over the extended reals.

  The row of scaled scores comes in two arrangements. One contracts the query against the sum of the content key and
  the positional key and multiplies by a scale: s(t) = (Σ_d q(d) · (k(t,d) + pe(t,d))) · c. The other contracts the
  query against each separately, adds, and divides: s(t) = (Σ_d q(d) · k(t,d) + Σ_d q(d) · pe(t,d)) / r.
  The softmax weight of key t in a row of scores is exp(s(t) − max_t' s(t')), the maximum taken as a fold from −∞.
  The output entry is the weighted mean of the value column, again in two arrangements: normalise last,
  (Σ_t w(t) · v(t)) / Σ_t w(t), or normalise first, Σ_t (w(t) / Σ_t' w(t')) · v(t).
-/
import Idealize.ShloMosaic.PureOps.Ideal

noncomputable section

namespace Cert.Attn

open Idealize.ShloMosaic

variable {T D : Type} [Fintype T] [Fintype D]

/-- Scaled scores, one contraction against the summed keys, times the scale `c`. -/
def scoreK (c : EReal) (q : D → EReal) (k pe : T → D → EReal) (t : T) : EReal :=
  (∑ d, q d * (k t d + pe t d)) * c

/-- Scaled scores, two contractions added, divided by `r`. -/
def scoreR (r : EReal) (q : D → EReal) (k pe : T → D → EReal) (t : T) : EReal :=
  Ideal.div ((∑ d, q d * k t d) + ∑ d, q d * pe t d) r

/-- The unnormalised softmax weight of key `t` in a row of scores. -/
def weight (s : T → EReal) (t : T) : EReal :=
  Ideal.exp (s t - (Finset.univ : Finset T).fold max ⊥ s)

/-- The weighted mean of a value column, normalised after the sum. -/
def normLast (s v : T → EReal) : EReal :=
  Ideal.div (∑ t, weight s t * v t) (∑ t, weight s t)

/-- The weighted mean of a value column, each weight normalised before the sum. -/
def normFirst (s v : T → EReal) : EReal :=
  ∑ t, Ideal.div (weight s t) (∑ t', weight s t') * v t

end Cert.Attn

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.LibAttentionLaw.lean ====
/-
  The law that joins the two arrangements of one attention output entry, at finite inputs.

  When the query, the keys, the positional keys and the value column are all real, both arrangements of the scaled
  scores are the same row of embedded reals, s(t) = (Σ_d q(d) · (k(t,d) + pe(t,d))) / 8: multiplication distributes
  over the sum of the two keys, and dividing by 8 is multiplying by 1/8. The maximum of a nonempty finite row of
  embedded reals, folded from −∞, is again an embedded real M, so every softmax weight is the positive real
  w(t) = exp(s(t) − M), and the row sum L = Σ_t w(t) is a positive real. Both arrangements of the weighted mean are
  then real, and (Σ_t w(t) · v(t)) / L = Σ_t (w(t) / L) · v(t) is the distributive law.
-/
import proofs.«119949_j64123861729937_2_alg».proof.Proof.LibAttention
import proofs.«119949_j64123861729937_2_alg».proof.Proof.LibERealSum

noncomputable section

namespace Cert.Attn

open Idealize.ShloMosaic
open Cert.Lib.ERealSum

variable {T D : Type} [Fintype T] [Fintype D]

/-- The common real row of scaled scores. -/
def realScore (q : D → ℝ) (k pe : T → D → ℝ) (t : T) : ℝ :=
  (∑ d, q d * (k t d + pe t d)) * (1 / 8)

/-- At real inputs, the scores contracted against the summed keys and scaled by 1/8 are the embedded real row. -/
theorem scoreK_coe (q : D → ℝ) (k pe : T → D → ℝ) :
    scoreK ((1 / 8 : ℝ) : EReal) (fun d => (q d : EReal)) (fun t d => (k t d : EReal))
        (fun t d => (pe t d : EReal))
      = fun t => (realScore q k pe t : EReal) := by
  funext t
  show (∑ d, (q d : EReal) * ((k t d : EReal) + (pe t d : EReal))) * ((1 / 8 : ℝ) : EReal) = _
  have h : ∀ d, (q d : EReal) * ((k t d : EReal) + (pe t d : EReal))
      = (q d : EReal) * ((k t d + pe t d : ℝ) : EReal) := fun d => by rw [EReal.coe_add]
  rw [Finset.sum_congr rfl fun d _ => h d, sum_coe_mul_coe, ← EReal.coe_mul]
  rfl

/-- At real inputs, the scores contracted separately, added and divided by 8 are the same embedded real row. -/
theorem scoreR_coe (q : D → ℝ) (k pe : T → D → ℝ) :
    scoreR ((8 : ℝ) : EReal) (fun d => (q d : EReal)) (fun t d => (k t d : EReal))
        (fun t d => (pe t d : EReal))
      = fun t => (realScore q k pe t : EReal) := by
  funext t
  show Ideal.div ((∑ d, (q d : EReal) * (k t d : EReal)) + ∑ d, (q d : EReal) * (pe t d : EReal))
      ((8 : ℝ) : EReal) = _
  have hsum : (∑ d, q d * k t d) + ∑ d, q d * pe t d = ∑ d, q d * (k t d + pe t d) := by
    rw [← Finset.sum_add_distrib]
    exact Finset.sum_congr rfl fun d _ => (mul_add _ _ _).symm
  rw [sum_coe_mul_coe, sum_coe_mul_coe, ← EReal.coe_add, Ideal.div_coe (by norm_num : (8 : ℝ) ≠ 0),
    ← EReal.coe_mul, hsum]
  rfl

/-- The maximum of a nonempty finite row of embedded reals, folded from −∞, is an embedded real. -/
theorem fold_max_coe [Nonempty T] (sc : T → ℝ) :
    ∃ M : ℝ, (Finset.univ : Finset T).fold max ⊥ (fun t => (sc t : EReal)) = (M : EReal) := by
  obtain ⟨t0, -, ht0⟩ := Finset.exists_max_image (Finset.univ : Finset T) sc Finset.univ_nonempty
  refine ⟨sc t0, le_antisymm ?_ ?_⟩
  · rw [Finset.fold_max_le]
    exact ⟨bot_le, fun t ht => EReal.coe_le_coe_iff.mpr (ht0 t ht)⟩
  · rw [Finset.le_fold_max]
    exact Or.inr ⟨t0, Finset.mem_univ _, le_rfl⟩

/-- With the row maximum the real M, each softmax weight is the embedded positive real exp(s(t) − M). -/
theorem weight_coe (sc : T → ℝ) {M : ℝ}
    (hM : (Finset.univ : Finset T).fold max ⊥ (fun t => (sc t : EReal)) = (M : EReal)) (t : T) :
    weight (fun t => (sc t : EReal)) t = ((Real.exp (sc t - M) : ℝ) : EReal) := by
  show Ideal.exp ((sc t : EReal) - (Finset.univ : Finset T).fold max ⊥ (fun t => (sc t : EReal))) = _
  rw [hM, ← EReal.coe_sub, Ideal.exp_coe]

/-- For a real row of scores and a real value column, normalising last and normalising first agree. -/
theorem normLast_eq_normFirst_coe [Nonempty T] (sc v : T → ℝ) :
    normLast (fun t => (sc t : EReal)) (fun t => (v t : EReal))
      = normFirst (fun t => (sc t : EReal)) (fun t => (v t : EReal)) := by
  obtain ⟨M, hM⟩ := fold_max_coe sc
  have hw := weight_coe sc hM
  have hL : 0 < ∑ t, Real.exp (sc t - M) :=
    Finset.sum_pos (fun t _ => Real.exp_pos _) Finset.univ_nonempty
  have hL0 : (∑ t, Real.exp (sc t - M)) ≠ 0 := ne_of_gt hL
  have hsum : ∑ t, weight (fun t => (sc t : EReal)) t = ((∑ t, Real.exp (sc t - M) : ℝ) : EReal) := by
    rw [coe_finset_sum]
    exact Finset.sum_congr rfl fun t _ => hw t
  have hnum : ∑ t, weight (fun t => (sc t : EReal)) t * (v t : EReal)
      = ((∑ t, Real.exp (sc t - M) * v t : ℝ) : EReal) := by
    rw [← sum_coe_mul_coe]
    exact Finset.sum_congr rfl fun t _ => by rw [hw t]
  have hterm : ∀ t, Ideal.div (weight (fun t => (sc t : EReal)) t)
        ((∑ t, Real.exp (sc t - M) : ℝ) : EReal) * (v t : EReal)
      = ((Real.exp (sc t - M) * (1 / ∑ t, Real.exp (sc t - M)) * v t : ℝ) : EReal) := fun t => by
    rw [hw t, Ideal.div_coe hL0, ← EReal.coe_mul, ← EReal.coe_mul]
  show Ideal.div (∑ t, weight (fun t => (sc t : EReal)) t * (v t : EReal))
        (∑ t, weight (fun t => (sc t : EReal)) t)
      = ∑ t, Ideal.div (weight (fun t => (sc t : EReal)) t) (∑ t', weight (fun t => (sc t : EReal)) t')
          * (v t : EReal)
  rw [hsum, hnum, Ideal.div_coe hL0, ← EReal.coe_mul, Finset.sum_congr rfl fun t _ => hterm t,
    ← coe_finset_sum]
  congr 1
  rw [Finset.sum_mul]
  exact Finset.sum_congr rfl fun t _ => by ring

/-- At finite inputs, the output entry computed from the scores scaled by 1/8 and normalised last equals the one
    computed from the scores divided by 8 and normalised first. -/
theorem normLast_eq_normFirst {T D : Type} [Fintype T] [Fintype D] [Nonempty T]
    (q : D → EReal) (k pe : T → D → EReal) (v : T → EReal)
    (hq : ∀ d, q d ≠ ⊤ ∧ q d ≠ ⊥) (hk : ∀ t d, k t d ≠ ⊤ ∧ k t d ≠ ⊥)
    (hpe : ∀ t d, pe t d ≠ ⊤ ∧ pe t d ≠ ⊥) (hv : ∀ t, v t ≠ ⊤ ∧ v t ≠ ⊥) :
    normLast (scoreK ((1 / 8 : ℝ) : EReal) q k pe) v = normFirst (scoreR ((8 : ℝ) : EReal) q k pe) v := by
  obtain ⟨q, rfl⟩ : ∃ q' : D → ℝ, q = fun d => (q' d : EReal) :=
    ⟨fun d => (q d).toReal, funext fun d => (EReal.coe_toReal (hq d).1 (hq d).2).symm⟩
  obtain ⟨k, rfl⟩ : ∃ k' : T → D → ℝ, k = fun t d => (k' t d : EReal) :=
    ⟨fun t d => (k t d).toReal, funext fun t => funext fun d => (EReal.coe_toReal (hk t d).1 (hk t d).2).symm⟩
  obtain ⟨pe, rfl⟩ : ∃ pe' : T → D → ℝ, pe = fun t d => (pe' t d : EReal) :=
    ⟨fun t d => (pe t d).toReal,
      funext fun t => funext fun d => (EReal.coe_toReal (hpe t d).1 (hpe t d).2).symm⟩
  obtain ⟨v, rfl⟩ : ∃ v' : T → ℝ, v = fun t => (v' t : EReal) :=
    ⟨fun t => (v t).toReal, funext fun t => (EReal.coe_toReal (hv t).1 (hv t).2).symm⟩
  rw [scoreK_coe, scoreR_coe]
  exact normLast_eq_normFirst_coe _ _

end Cert.Attn

end
-- ==== Proof.LibAttentionScale.lean ====
/-
  The scale of an attention score row, inside or outside the contraction, and the law that joins the two
  arrangements of one attention output entry at finite inputs.

  For a query row q over the features, keys k(t, ·) and a scale c, one arrangement multiplies the query by the scale
  before contracting, s(t) = Σ_f (q(f) · c) · k(t, f); the other multiplies the finished contraction,
  s(t) = (Σ_f q(f) · k(t, f)) · c. At real q, k and c both are the same row of reals: multiplication is commutative and
  distributes over the finite sum. With the softmax weights w(t) = exp(s(t) − max_t' s(t')) of such a row and a real
  value column v, the weighted mean normalised last, (Σ_t w(t) · v(t)) / Σ_t w(t), equals the one with each weight
  normalised first, Σ_t (w(t) / Σ_t' w(t')) · v(t): the weights are positive reals, their sum is a positive real, and
  the rest is distributivity. Stated over abstract finite index types for the keys and the features.
-/
import proofs.«119949_j64123861729937_2_alg».proof.Proof.LibAttentionLaw

noncomputable section

namespace Cert.Sdpa

open Idealize.ShloMosaic Cert.Attn Cert.Lib.ERealSum

section Abstract

variable {T D : Type} [Fintype T] [Fintype D]

/-- The row of scores with the scale multiplied into the query before the contraction. -/
def scoreIn (c : EReal) (q : D → EReal) (k : T → D → EReal) (t : T) : EReal :=
  ∑ d, (q d * c) * k t d

/-- The row of scores with the finished contraction multiplied by the scale. -/
def scoreOut (c : EReal) (q : D → EReal) (k : T → D → EReal) (t : T) : EReal :=
  (∑ d, q d * k t d) * c

/-- At real inputs the query-scaled scores are the embedded real row (Σ_f q(f) · k(t, f)) · c. -/
theorem scoreIn_coe (c : ℝ) (q : D → ℝ) (k : T → D → ℝ) :
    scoreIn (c : EReal) (fun d => (q d : EReal)) (fun t d => (k t d : EReal))
      = fun t => (((∑ d, q d * k t d) * c : ℝ) : EReal) := by
  funext t
  show ∑ d, ((q d : EReal) * (c : EReal)) * (k t d : EReal) = _
  have h : ∀ d, ((q d : EReal) * (c : EReal)) * (k t d : EReal) = ((q d * c : ℝ) : EReal) * ((k t d : ℝ) : EReal) :=
    fun d => by rw [EReal.coe_mul]
  rw [Finset.sum_congr rfl fun d _ => h d, sum_coe_mul_coe]
  congr 1
  rw [Finset.sum_mul]
  exact Finset.sum_congr rfl fun d _ => by ring

/-- At real inputs the contraction-scaled scores are the same embedded real row. -/
theorem scoreOut_coe (c : ℝ) (q : D → ℝ) (k : T → D → ℝ) :
    scoreOut (c : EReal) (fun d => (q d : EReal)) (fun t d => (k t d : EReal))
      = fun t => (((∑ d, q d * k t d) * c : ℝ) : EReal) := by
  funext t
  show (∑ d, (q d : EReal) * (k t d : EReal)) * (c : EReal) = _
  rw [sum_coe_mul_coe, ← EReal.coe_mul]

/-- At finite inputs: scaling the query and normalising last equals scaling the contraction and normalising first. -/
theorem normLast_scoreIn_eq_normFirst_scoreOut [Nonempty T] (c : EReal) (q : D → EReal) (k : T → D → EReal)
    (v : T → EReal) (hc : c ≠ ⊤ ∧ c ≠ ⊥) (hq : ∀ d, q d ≠ ⊤ ∧ q d ≠ ⊥) (hk : ∀ t d, k t d ≠ ⊤ ∧ k t d ≠ ⊥)
    (hv : ∀ t, v t ≠ ⊤ ∧ v t ≠ ⊥) :
    normLast (scoreIn c q k) v = normFirst (scoreOut c q k) v := by
  obtain ⟨c, rfl⟩ : ∃ c' : ℝ, c = (c' : EReal) := ⟨c.toReal, (EReal.coe_toReal hc.1 hc.2).symm⟩
  obtain ⟨q, rfl⟩ : ∃ q' : D → ℝ, q = fun d => (q' d : EReal) :=
    ⟨fun d => (q d).toReal, funext fun d => (EReal.coe_toReal (hq d).1 (hq d).2).symm⟩
  obtain ⟨k, rfl⟩ : ∃ k' : T → D → ℝ, k = fun t d => (k' t d : EReal) :=
    ⟨fun t d => (k t d).toReal, funext fun t => funext fun d => (EReal.coe_toReal (hk t d).1 (hk t d).2).symm⟩
  obtain ⟨v, rfl⟩ : ∃ v' : T → ℝ, v = fun t => (v' t : EReal) :=
    ⟨fun t => (v t).toReal, funext fun t => (EReal.coe_toReal (hv t).1 (hv t).2).symm⟩
  rw [scoreIn_coe, scoreOut_coe]
  exact normLast_eq_normFirst_coe _ _

end Abstract

end Cert.Sdpa

end
-- ==== Proof.AttnSpec.lean ====
/-
  Scaled-dot-product attention over [2, 16, 2048, 128] arrays, entry by entry, on the extended reals, in the two
  arrangements the two programs compute.

  For a head (b, h), a query row r and a value column d, the row of scores over the keys t is the contraction of the
  query row with key t over the 128 features, times the scale c. One arrangement scales the query first,
  s(t) = Σ_f (q(f) · c) · k(t, f); the other scales the finished contraction, s(t) = (Σ_f q(f) · k(t, f)) · c.
  The softmax weight of key t is w(t) = exp(s(t) − max_t' s(t')). One arrangement normalises the weighted sum of the
  value column last, (Σ_t w(t) · v(t, d)) / Σ_t w(t); the other normalises each weight first,
  Σ_t (w(t) / Σ_t' w(t')) · v(t, d).

  For real q, k, v and a real scale both score rows are the same row of reals (multiplication is commutative and
  distributes over the finite sum), the row maximum is real, every weight is a positive real, their sum is a positive
  real, and the two normalisations agree by distributivity. The scale here is the binary32 number with the word
  0x3DB504F3, a normal number and therefore real.
-/
import proofs.«119949_j64123861729937_2_alg».proof.Proof.LibAttentionScale
import Idealize.ShloMosaic.Lib.ValueIdx

noncomputable section

namespace Cert.Sdpa

open Idealize.ShloMosaic Idealize.ShloMosaic.ValueIdx Cert.Attn Cert.Lib.ERealSum

/-! ## The arrays -/

/-- A [2, 16, 2048, 128] array of extended reals: batch, head, sequence position, feature. -/
abbrev Arr : Type := FVec Ideal (⟨4, ![2, 16, 2048, 128]⟩ : Shape) .f32

/-- The scale: the binary32 number with the word 0x3DB504F3 (the rounding of 1/√128 to that format). -/
def scale : EReal := Ideal.ofBits .f32 0x3DB504F3#32

/-- It is a normal number, hence real. -/
theorem scale_finite : scale ≠ ⊤ ∧ scale ≠ ⊥ := by
  have key : ∀ a b : ℝ, ((a : EReal) * (b : EReal)) ≠ ⊤ ∧ ((a : EReal) * (b : EReal)) ≠ ⊥ := fun a b => by
    rw [← EReal.coe_mul]; exact ⟨EReal.coe_ne_top _, EReal.coe_ne_bot _⟩
  unfold scale
  simp [Ideal.ofBits, Ideal.ieee]
  first
    | exact key _ _
    | (constructor <;> norm_cast <;> first | exact EReal.coe_ne_top _ | exact EReal.coe_ne_bot _)

/-- Query row r of head (b, h), over the features. -/
def qRow (x : Arr) (b : Fin 2) (h : Fin 16) (r : Fin 2048) : Fin 128 → EReal := fun f => x (ix4 b h r f)

/-- The keys of head (b, h): position t, feature f. -/
def kMat (x : Arr) (b : Fin 2) (h : Fin 16) : Fin 2048 → Fin 128 → EReal := fun t f => x (ix4 b h t f)

/-- Column d of the values of head (b, h), over the positions. -/
def vCol (x : Arr) (b : Fin 2) (h : Fin 16) (d : Fin 128) : Fin 2048 → EReal := fun t => x (ix4 b h t d)

/-- One output entry, the query scaled first and the weighted sum normalised last. -/
def lastAt (q k v : Arr) (b : Fin 2) (h : Fin 16) (r : Fin 2048) (d : Fin 128) : EReal :=
  normLast (scoreIn scale (qRow q b h r) (kMat k b h)) (vCol v b h d)

/-- One output entry, the contraction scaled and each weight normalised first. -/
def firstAt (q k v : Arr) (b : Fin 2) (h : Fin 16) (r : Fin 2048) (d : Fin 128) : EReal :=
  normFirst (scoreOut scale (qRow q b h r) (kMat k b h)) (vCol v b h d)

/-- The whole output, query scaled first, normalised last. -/
def attnLast (q k v : Arr) : Arr := fun i =>
  lastAt q k v ⟨(i 0).val, (i 0).isLt⟩ ⟨(i 1).val, (i 1).isLt⟩ ⟨(i 2).val, (i 2).isLt⟩ ⟨(i 3).val, (i 3).isLt⟩

/-- The whole output, contraction scaled, normalised first. -/
def attnFirst (q k v : Arr) : Arr := fun i =>
  firstAt q k v ⟨(i 0).val, (i 0).isLt⟩ ⟨(i 1).val, (i 1).isLt⟩ ⟨(i 2).val, (i 2).isLt⟩ ⟨(i 3).val, (i 3).isLt⟩

theorem attnLast_ix4 (q k v : Arr) (b : Fin 2) (h : Fin 16) (r : Fin 2048) (d : Fin 128) :
    attnLast q k v (ix4 b h r d) = lastAt q k v b h r d := rfl

theorem attnFirst_ix4 (q k v : Arr) (b : Fin 2) (h : Fin 16) (r : Fin 2048) (d : Fin 128) :
    attnFirst q k v (ix4 b h r d) = firstAt q k v b h r d := rfl

/-- At finite arrays the two arrangements are one array. -/
theorem attnLast_eq_attnFirst (q k v : Arr) (hq : ∀ i, q i ≠ ⊤ ∧ q i ≠ ⊥) (hk : ∀ i, k i ≠ ⊤ ∧ k i ≠ ⊥)
    (hv : ∀ i, v i ≠ ⊤ ∧ v i ≠ ⊥) : attnLast q k v = attnFirst q k v := by
  funext i
  exact normLast_scoreIn_eq_normFirst_scoreOut scale _ _ _ scale_finite (fun _ => hq _) (fun _ _ => hk _)
    (fun _ => hv _)

end Cert.Sdpa

end
-- ==== Proof.RefValue.lean ====
/-
  The reference program's result, entry by entry, is scaled-dot-product attention with the finished contraction
  scaled and every softmax weight normalised before the weighted sum.

  The reference computes, for a head (b, h), a query row r and a key position t, the contraction of the query row
  with key t over the 128 features, multiplies it by the scale, takes the row maximum over t (a fold of max from
  −∞), exponentiates the difference, sums the exponentials along the row, divides each exponential by that sum, and
  finally contracts the row of quotients with column d of the values. Each stage below is read at an index written
  with literal coordinates; composing the stages gives the specification's "normalise first" arrangement.

  Nothing here needs finiteness: every step is a rewriting of one expression over the extended reals.
-/
import proofs.«119949_j64123861729937_2_alg».proof.Proof.Gen.ReferenceIdeal.Read
import proofs.«119949_j64123861729937_2_alg».proof.Proof.AttnSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic
  Idealize.ShloMosaic.ValueIdx Cert.Sdpa Cert.Attn

/-- The binary32 word 0xFF800000 is −∞, the least extended real. -/
theorem negInf_eq_bot : Ideal.ofBits .f32 0xFF800000#32 = (⊥ : EReal) := by
  simp [Ideal.ofBits, Ideal.ieee]

/-- The shape fact that names the index inserted on the reduced (last) axis of a [2, 16, 2048, 2048] array. -/
theorem reducesLast : S2x16x2048x2048.Reduces [3] S2x16x2048 := by decide

/-- The row of scaled scores of query row r of head (b, h): the specification's contraction-then-scale row. -/
abbrev scores (x0 x1 : Arr) (b : Fin 2) (h : Fin 16) (r : Fin 2048) : Fin 2048 → EReal :=
  scoreOut scale (qRow x0 b h r) (kMat x1 b h)

/-- The first contraction at (b, h, r, t): query row r against key t over the features. -/
theorem contraction_at (x0 x1 : Arr) (b : Fin 2) (h : Fin 16) (r t : Fin 2048) :
    val_main_v0 (F := Ideal) x0 x1 (ix4 b h r t) = ∑ f : Fin 128, x0 (ix4 b h r f) * x1 (ix4 b h t f) := by
  rw [val_main_v0_apply]
  refine Finset.sum_congr rfl fun f _ => ?_
  have el : lidx_main_v0 (ix4 b h r t) f = ix4 b h r f :=
    funext fun a => Fin.ext (by match a with | ⟨0, _⟩ => rfl | ⟨1, _⟩ => rfl | ⟨2, _⟩ => rfl | ⟨3, _⟩ => rfl)
  have er : ridx_main_v0 (ix4 b h r t) f = ix4 b h t f :=
    funext fun a => Fin.ext (by match a with | ⟨0, _⟩ => rfl | ⟨1, _⟩ => rfl | ⟨2, _⟩ => rfl | ⟨3, _⟩ => rfl)
  rw [el, er]

/-- The scaled contraction at (b, h, r, t) is entry t of the row of scores. -/
theorem scaled_at (x0 x1 : Arr) (b : Fin 2) (h : Fin 16) (r t : Fin 2048) :
    val_main_v2 (F := Ideal) x0 x1 (ix4 b h r t) = scores x0 x1 b h r t := by
  rw [val_main_v2_apply, contraction_at, val_main_v1_apply, val_main_cst_apply]
  rfl

/-- The index inserted at position t on the last axis over (b, h, r) is (b, h, r, t). -/
theorem lift_at (b : Fin 2) (h : Fin 16) (r t : Fin 2048) :
    reducesLast.lift (ix3 b h r) t = ix4 b h r t :=
  funext fun a => Fin.ext (by match a with | ⟨0, _⟩ => rfl | ⟨1, _⟩ => rfl | ⟨2, _⟩ => rfl | ⟨3, _⟩ => rfl)

/-- The row maximum at (b, h, r): the fold of max from −∞ over the row of scores. -/
theorem rowMax_at (x0 x1 : Arr) (b : Fin 2) (h : Fin 16) (r : Fin 2048) :
    val_main_v3 (F := Ideal) x0 x1 (ix3 b h r)
      = (Finset.univ : Finset (Fin 2048)).fold max ⊥ (scores x0 x1 b h r) := by
  unfold val_main_v3
  rw [Host.reduce_eq_fold_single _ _ _ reducesTo_S2x16x2048x2048_S2x16x2048_d3 reducesLast h_S_]
  show (Finset.univ : Finset (Fin 2048)).fold max (val_main_cst_0 (F := Ideal) (Shape.Idx.first h_S_))
      (fun t : Fin 2048 => val_main_v2 (F := Ideal) x0 x1 (reducesLast.lift (ix3 b h r) t)) = _
  have hf : (fun t : Fin 2048 => val_main_v2 (F := Ideal) x0 x1 (reducesLast.lift (ix3 b h r) t))
      = scores x0 x1 b h r := funext fun t => by rw [lift_at, scaled_at]
  rw [hf, val_main_cst_0_apply, Ideal.ofBits_def, negInf_eq_bot]

/-- The row maximum joined with −∞ is the row maximum. -/
theorem rowMax'_at (x0 x1 : Arr) (b : Fin 2) (h : Fin 16) (r : Fin 2048) :
    val_main_v5 (F := Ideal) x0 x1 (ix3 b h r)
      = (Finset.univ : Finset (Fin 2048)).fold max ⊥ (scores x0 x1 b h r) := by
  rw [val_main_v5_apply, val_main_v4_apply, val_main_cst_1_apply, rowMax_at, Ideal.ofBits_def, negInf_eq_bot,
    Ideal.maximumf_def]
  exact max_eq_right bot_le

/-- The row maximum broadcast back along the row: every entry (b, h, r, t) holds the maximum of row (b, h, r). -/
theorem rowMaxBroadcast_at (x0 x1 : Arr) (b : Fin 2) (h : Fin 16) (r t : Fin 2048) :
    val_main_v7 (F := Ideal) x0 x1 (ix4 b h r t)
      = (Finset.univ : Finset (Fin 2048)).fold max ⊥ (scores x0 x1 b h r) := by
  rw [val_main_v7_apply, val_main_v6_apply]
  have e : idx_main_v6 (idx_main_v7 (ix4 b h r t)) = ix3 b h r :=
    funext fun a => Fin.ext (by match a with | ⟨0, _⟩ => rfl | ⟨1, _⟩ => rfl | ⟨2, _⟩ => rfl)
  rw [e, rowMax'_at]

/-- The exponential of the score less the row maximum is the softmax weight of key t. -/
theorem weight_at (x0 x1 : Arr) (b : Fin 2) (h : Fin 16) (r t : Fin 2048) :
    val_main_v9 (F := Ideal) x0 x1 (ix4 b h r t) = weight (scores x0 x1 b h r) t := by
  rw [val_main_v9_apply, val_main_v8_apply, scaled_at, rowMaxBroadcast_at]
  rfl

/-- The row sum of the weights at (b, h, r): the sum from zero is the sum. -/
theorem weightSum_at (x0 x1 : Arr) (b : Fin 2) (h : Fin 16) (r : Fin 2048) :
    val_main_v10 (F := Ideal) x0 x1 (ix3 b h r) = ∑ t : Fin 2048, weight (scores x0 x1 b h r) t := by
  rw [val_main_v10_apply, val_main_cst_2_apply, Ideal.ofBits_def, Ideal.ofBits_zero_f32, zero_add]
  refine Finset.sum_congr rfl fun t _ => ?_
  have e : idx_main_v10 (ix3 b h r) t = ix4 b h r t :=
    funext fun a => Fin.ext (by match a with | ⟨0, _⟩ => rfl | ⟨1, _⟩ => rfl | ⟨2, _⟩ => rfl | ⟨3, _⟩ => rfl)
  rw [e, weight_at]

/-- The row sum broadcast back along the row. -/
theorem weightSumBroadcast_at (x0 x1 : Arr) (b : Fin 2) (h : Fin 16) (r t : Fin 2048) :
    val_main_v12 (F := Ideal) x0 x1 (ix4 b h r t) = ∑ t' : Fin 2048, weight (scores x0 x1 b h r) t' := by
  rw [val_main_v12_apply, val_main_v11_apply]
  have e : idx_main_v11 (idx_main_v12 (ix4 b h r t)) = ix3 b h r :=
    funext fun a => Fin.ext (by match a with | ⟨0, _⟩ => rfl | ⟨1, _⟩ => rfl | ⟨2, _⟩ => rfl)
  rw [e, weightSum_at]

/-- The normalised weight of key t in row (b, h, r). -/
theorem normWeight_at (x0 x1 : Arr) (b : Fin 2) (h : Fin 16) (r t : Fin 2048) :
    val_main_v13 (F := Ideal) x0 x1 (ix4 b h r t)
      = Ideal.div (weight (scores x0 x1 b h r) t) (∑ t' : Fin 2048, weight (scores x0 x1 b h r) t') := by
  rw [val_main_v13_apply, weight_at, weightSumBroadcast_at]
  rfl

/-- The reference's result is the attention array in the arrangement that scales the finished contraction and
    normalises each weight before the weighted sum. -/
theorem ref_eq (x0 x1 x2 : Cert.Sdpa.Arr) :
    Cert.ReferenceIdeal.Read.val_main_v14 (F := Ideal) x0 x1 x2 = Cert.Sdpa.attnFirst x0 x1 x2 := by
  funext i
  obtain ⟨b, h, r, d, rfl⟩ : ∃ (b : Fin 2) (h : Fin 16) (r : Fin 2048) (d : Fin 128), i = ix4 b h r d :=
    ⟨i 0, i 1, i 2, i 3, eq_ix4 i⟩
  rw [attnFirst_ix4, val_main_v14_apply]
  unfold firstAt normFirst
  refine Finset.sum_congr rfl fun t _ => ?_
  have el : lidx_main_v14 (ix4 b h r d) t = ix4 b h r t :=
    funext fun a => Fin.ext (by match a with | ⟨0, _⟩ => rfl | ⟨1, _⟩ => rfl | ⟨2, _⟩ => rfl | ⟨3, _⟩ => rfl)
  have er : ridx_main_v14 (ix4 b h r d) t = ix4 b h t d :=
    funext fun a => Fin.ext (by match a with | ⟨0, _⟩ => rfl | ⟨1, _⟩ => rfl | ⟨2, _⟩ => rfl | ⟨3, _⟩ => rfl)
  rw [el, er, normWeight_at]
  rfl

end Cert.ReferenceIdeal.RefValue

end
-- ==== Proof.Finite.lean ====
/-
  The precondition says the inputs are finite.

  The printed precondition computes, for each of the three argument arrays, "every entry x satisfies |x| < +∞" — the
  absolute value compared against the binary32 word 0x7F800000, which is +∞, the comparisons joined over the whole array
  by a reduction with "and" from the constant 1 — and joins the three answers by two more "and"s; the claim assumes the
  result is 1. An "and" of bits is 1 exactly when both are, and a reduction by "and" that is 1 met only 1s, so every
  entry x of every argument has max x (−x) < ⊤. On the extended reals that excludes both ⊤ (where x itself is ⊤) and ⊥
  (where −x is ⊤), so every entry is a real number.
-/
import proofs.«119949_j64123861729937_2_alg».proof.Defs
import proofs.«119949_j64123861729937_2_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem

/-- An extended real whose absolute value, max x (−x), compares below the word 0x7F800000 (+∞) is neither ⊤ nor ⊥. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = (⊤ : EReal) := by simp [Ideal.ofBits, Ideal.ieee]
  rw [htop] at h
  have hlt : max x (-x) < ⊤ := by
    by_contra hc
    simp [Ideal.cmp, hc] at h
  constructor
  · rintro rfl; simp at hlt
  · rintro rfl; simp at hlt

/-- The scalar shape has one index. -/
instance : Subsingleton Cert.Pre_finite_inputs.S_.Idx := ⟨fun _ _ => funext fun d => d.elim0⟩

/-- One array: if "all entries have |x| < +∞", reduced by "and" from 1 over every axis, is 1, every entry is real. -/
theorem finite_of_all (x : FVec Ideal Cert.Pre_finite_inputs.S2x16x2048x128 .f32)
    (e : Host.reduce IntOp.andi
        (cmpf .olt (Host.absf x)
          (broadcastInDim Cert.Pre_finite_inputs.S2x16x2048x128 ![] Cert.Pre_finite_inputs.Gen.bcast_S_S2x16x2048x128
            (constant (F := Ideal) Cert.Pre_finite_inputs.S_ .f32 0x7F800000#32)))
        (constantI Cert.Pre_finite_inputs.S_ 1 1#1) Cert.Pre_finite_inputs.Gen.reducesTo_S2x16x2048x128_S_d0_1_2_3
        Cert.Pre_finite_inputs.Gen.h_S_ ValueIdx.ix0 = 1#1)
    (i : Cert.Pre_finite_inputs.S2x16x2048x128.Idx) : x i ≠ (⊤ : EReal) ∧ x i ≠ (⊥ : EReal) :=
  finite_of_abs_lt (x i) (Host.reduce_andi_all _ _ _ _ _ e i)

/-- Under the precondition each of the three argument arrays, on every device, has only real entries. -/
theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, m ((c.tc : Thread Cert.KernelIdeal.nD Cert.KernelIdeal.τ).loc Cert.KernelIdeal.main_arg0) i ≠ (⊤ : EReal) ∧ m ((c.tc : Thread Cert.KernelIdeal.nD Cert.KernelIdeal.τ).loc Cert.KernelIdeal.main_arg0) i ≠ (⊥ : EReal))
    ∧ (∀ i, m ((c.tc : Thread Cert.KernelIdeal.nD Cert.KernelIdeal.τ).loc Cert.KernelIdeal.main_arg1) i ≠ (⊤ : EReal) ∧ m ((c.tc : Thread Cert.KernelIdeal.nD Cert.KernelIdeal.τ).loc Cert.KernelIdeal.main_arg1) i ≠ (⊥ : EReal))
    ∧ (∀ i, m ((c.tc : Thread Cert.KernelIdeal.nD Cert.KernelIdeal.τ).loc Cert.KernelIdeal.main_arg2) i ≠ (⊤ : EReal) ∧ m ((c.tc : Thread Cert.KernelIdeal.nD Cert.KernelIdeal.τ).loc Cert.KernelIdeal.main_arg2) i ≠ (⊥ : EReal)) := by
  have h0 := congrFun (h c) ValueIdx.ix0
  dsimp only [Cert.Pre_finite_inputs.fn] at h0
  obtain ⟨h01, h2⟩ := IntOp.andi_eq_one.1 h0
  obtain ⟨h00, h1⟩ := IntOp.andi_eq_one.1 h01
  exact ⟨fun i => finite_of_all _ h00 i, fun i => finite_of_all _ h1 i, fun i => finite_of_all _ h2 i⟩

end Cert.Proof.Finite

end
-- ==== Proof.BlockFacts.lean ====
/-
  Facts about the shapes one grid point of the attention kernel works on: a query block [1, 1024, 128], key and value
  blocks [1, 2048, 128], score and weight blocks [1, 1024, 2048], and per-row columns [1, 1024, 1].

  A column broadcast along the lanes reads its row; a row [1, 1024] of reduced values kept as a column [1, 1024, 1]
  reads the same row-major position. The scores' contraction pairs query row r with key row t over the 128 features
  (the batch axis has one entry, rows are the free axes, the last axes are contracted); the values' contraction pairs
  weight row r with value column d over the 2048 keys. Into a zero accumulator each contraction, read at an entry over
  the extended reals, is the plain finite sum of the products. A sum over the last axis of a [1, 1024, 2048] block read
  at row r is the finite sum over the 2048 keys; the maximum over that axis, folded from −∞, is the fold of max from
  the bottom of the extended reals.
-/
import proofs.«119949_j64123861729937_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.TcCoe Idealize.SL.Sem Idealize.ShloMosaic.ValueIdx
open Cert.KernelIdeal Cert.KernelIdeal.Gen

/-! ## Layout facts on the block's shapes -/

/-- A [1, 1024, 1] column broadcast along 128 lanes reads its row. -/
theorem bcast128_apply {α : Type} (v : S1x1024x1.Idx → α) (r : Fin 1024) (d : Fin 128) :
    broadcastTo S1x1024x128 v broadcasts_S1x1024x1_S1x1024x128 (ix3 (0 : Fin 1) r d) = v (ix3 (0 : Fin 1) r (0 : Fin 1)) :=
  broadcastTo_apply v _ _ _ (fun a => by
    match a with
    | ⟨0, _⟩ => show (0 : Nat) = if (1 : Nat) = 1 then 0 else _; rw [if_pos rfl]
    | ⟨1, _⟩ => show r.val = if (1024 : Nat) = 1 then 0 else r.val; rw [if_neg (by decide)]
    | ⟨2, _⟩ => show (0 : Nat) = if (1 : Nat) = 1 then 0 else _; rw [if_pos rfl])

/-- A [1, 1024, 1] column broadcast along 2048 lanes reads its row. -/
theorem bcast2048_apply {α : Type} (v : S1x1024x1.Idx → α) (r : Fin 1024) (t : Fin 2048) :
    broadcastTo S1x1024x2048 v broadcasts_S1x1024x1_S1x1024x2048 (ix3 (0 : Fin 1) r t) = v (ix3 (0 : Fin 1) r (0 : Fin 1)) :=
  broadcastTo_apply v _ _ _ (fun a => by
    match a with
    | ⟨0, _⟩ => show (0 : Nat) = if (1 : Nat) = 1 then 0 else _; rw [if_pos rfl]
    | ⟨1, _⟩ => show r.val = if (1024 : Nat) = 1 then 0 else r.val; rw [if_neg (by decide)]
    | ⟨2, _⟩ => show (0 : Nat) = if (1 : Nat) = 1 then 0 else _; rw [if_pos rfl])

/-- A [1, 1024] row of reduced values kept as a [1, 1024, 1] column reads the same row-major position. -/
theorem colCast_apply {α : Type} (w : S1x1024.Idx → α) (r : Fin 1024) :
    shapeCast S1x1024x1 w shapeCasts_S1x1024_S1x1024x1 (ix3 (0 : Fin 1) r (0 : Fin 1)) = w (ix2 (0 : Fin 1) r) :=
  shapeCast_apply w _ _ _ (by
    rw [Shape.rowMajor_val_three, Shape.rowMajor_val_two]
    show (0 : Nat) * 1024 + r.val = ((0 : Nat) * 1024 + r.val) * 1 + 0
    omega)

/-! ## The two contractions read at an entry -/

/-- The scores' contraction: query block [1, 1024, 128] against key block [1, 2048, 128] over the features. -/
abbrev D1 := dot_S1x1024x128_S1x2048x128_S1x1024x2048_2_2_1_1_0_0
/-- The values' contraction: weights [1, 1024, 2048] against value block [1, 2048, 128] over the keys. -/
abbrev D2 := dot_S1x1024x2048_S1x2048x128_S1x1024x128_2_1_1_2_0_0

theorem lhs1_0 (i : S1x1024x2048.Idx) (q : D1.contr.Idx) : (D1.lhsIdx i q 0).val = (i 0).val := by
  unfold DotDims.lhsIdx
  rw [dif_pos (show (0 : Fin S1x1024x128.rank) ∈ D1.lhsBatch by decide)]
  rfl
theorem lhs1_1 (i : S1x1024x2048.Idx) (q : D1.contr.Idx) : (D1.lhsIdx i q 1).val = (i 1).val := by
  unfold DotDims.lhsIdx
  rw [dif_neg (show ¬(1 : Fin S1x1024x128.rank) ∈ D1.lhsBatch by decide), dif_pos (show (1 : Fin S1x1024x128.rank) ∈ D1.lhsNonContracting by decide)]
  rfl
theorem lhs1_2 (i : S1x1024x2048.Idx) (q : D1.contr.Idx) : (D1.lhsIdx i q 2).val = (q ⟨0, by decide⟩).val :=
  D1.lhsIdx_val_of_single rfl i q
theorem rhs1_0 (i : S1x1024x2048.Idx) (q : D1.contr.Idx) : (D1.rhsIdx i q 0).val = (i 0).val := by
  unfold DotDims.rhsIdx
  rw [dif_pos (show (0 : Fin S1x2048x128.rank) ∈ D1.rhsBatch by decide)]
  rfl
theorem rhs1_1 (i : S1x1024x2048.Idx) (q : D1.contr.Idx) : (D1.rhsIdx i q 1).val = (i 2).val := by
  unfold DotDims.rhsIdx
  rw [dif_neg (show ¬(1 : Fin S1x2048x128.rank) ∈ D1.rhsBatch by decide), dif_pos (show (1 : Fin S1x2048x128.rank) ∈ D1.rhsNonContracting by decide)]
  rfl
theorem rhs1_2 (i : S1x1024x2048.Idx) (q : D1.contr.Idx) : (D1.rhsIdx i q 2).val = (q ⟨0, by decide⟩).val :=
  D1.rhsIdx_val_of_single rfl i q

/-- Entry (r, t) of the scores' contraction into a zero accumulator: the sum over the features. -/
theorem scores_apply (l : FVec Ideal S1x1024x128 .bf16) (rr : FVec Ideal S1x2048x128 .bf16) (r : Fin 1024) (t : Fin 2048) :
    matmul D1 none l rr (constant (F := Ideal) S1x1024x2048 .f32 0x00000000#32) (ix3 (0 : Fin 1) r t)
      = ∑ f : Fin 128, l (ix3 (0 : Fin 1) r f) * rr (ix3 (0 : Fin 1) t f) := by
  simp only [matmul]
  rw [Ideal.matmul_constant_zero_apply, ← Equiv.sum_comp (ValueIdx.contrEquiv1 D1 128 rfl rfl).symm]
  refine Finset.sum_congr rfl fun k _ => ?_
  have hk := ValueIdx.contrEquiv1_symm_val D1 128 rfl rfl k
  have el : D1.lhsIdx (ix3 (0 : Fin 1) r t) ((ValueIdx.contrEquiv1 D1 128 rfl rfl).symm k) = ix3 (0 : Fin 1) r k :=
    funext fun a => Fin.ext (by
      match a with
      | ⟨0, _⟩ => exact lhs1_0 _ _
      | ⟨1, _⟩ => exact lhs1_1 _ _
      | ⟨2, _⟩ => exact (lhs1_2 _ _).trans hk)
  have er : D1.rhsIdx (ix3 (0 : Fin 1) r t) ((ValueIdx.contrEquiv1 D1 128 rfl rfl).symm k) = ix3 (0 : Fin 1) t k :=
    funext fun a => Fin.ext (by
      match a with
      | ⟨0, _⟩ => exact rhs1_0 _ _
      | ⟨1, _⟩ => exact rhs1_1 _ _
      | ⟨2, _⟩ => exact (rhs1_2 _ _).trans hk)
  rw [el, er]

theorem lhs2_0 (i : S1x1024x128.Idx) (q : D2.contr.Idx) : (D2.lhsIdx i q 0).val = (i 0).val := by
  unfold DotDims.lhsIdx
  rw [dif_pos (show (0 : Fin S1x1024x2048.rank) ∈ D2.lhsBatch by decide)]
  rfl
theorem lhs2_1 (i : S1x1024x128.Idx) (q : D2.contr.Idx) : (D2.lhsIdx i q 1).val = (i 1).val := by
  unfold DotDims.lhsIdx
  rw [dif_neg (show ¬(1 : Fin S1x1024x2048.rank) ∈ D2.lhsBatch by decide), dif_pos (show (1 : Fin S1x1024x2048.rank) ∈ D2.lhsNonContracting by decide)]
  rfl
theorem lhs2_2 (i : S1x1024x128.Idx) (q : D2.contr.Idx) : (D2.lhsIdx i q 2).val = (q ⟨0, by decide⟩).val :=
  D2.lhsIdx_val_of_single rfl i q
theorem rhs2_0 (i : S1x1024x128.Idx) (q : D2.contr.Idx) : (D2.rhsIdx i q 0).val = (i 0).val := by
  unfold DotDims.rhsIdx
  rw [dif_pos (show (0 : Fin S1x2048x128.rank) ∈ D2.rhsBatch by decide)]
  rfl
theorem rhs2_1 (i : S1x1024x128.Idx) (q : D2.contr.Idx) : (D2.rhsIdx i q 1).val = (q ⟨0, by decide⟩).val :=
  D2.rhsIdx_val_of_single rfl i q
theorem rhs2_2 (i : S1x1024x128.Idx) (q : D2.contr.Idx) : (D2.rhsIdx i q 2).val = (i 2).val := by
  unfold DotDims.rhsIdx
  rw [dif_neg (show ¬(2 : Fin S1x2048x128.rank) ∈ D2.rhsBatch by decide), dif_pos (show (2 : Fin S1x2048x128.rank) ∈ D2.rhsNonContracting by decide)]
  rfl

/-- Entry (r, d) of the values' contraction into a zero accumulator: the sum over the keys. -/
theorem pv_apply (l : FVec Ideal S1x1024x2048 .bf16) (rr : FVec Ideal S1x2048x128 .bf16) (r : Fin 1024) (d : Fin 128) :
    matmul D2 none l rr (constant (F := Ideal) S1x1024x128 .f32 0x00000000#32) (ix3 (0 : Fin 1) r d)
      = ∑ t : Fin 2048, l (ix3 (0 : Fin 1) r t) * rr (ix3 (0 : Fin 1) t d) := by
  simp only [matmul]
  rw [Ideal.matmul_constant_zero_apply, ← Equiv.sum_comp (ValueIdx.contrEquiv1 D2 2048 rfl rfl).symm]
  refine Finset.sum_congr rfl fun k _ => ?_
  have hk := ValueIdx.contrEquiv1_symm_val D2 2048 rfl rfl k
  have el : D2.lhsIdx (ix3 (0 : Fin 1) r d) ((ValueIdx.contrEquiv1 D2 2048 rfl rfl).symm k) = ix3 (0 : Fin 1) r k :=
    funext fun a => Fin.ext (by
      match a with
      | ⟨0, _⟩ => exact lhs2_0 _ _
      | ⟨1, _⟩ => exact lhs2_1 _ _
      | ⟨2, _⟩ => exact (lhs2_2 _ _).trans hk)
  have er : D2.rhsIdx (ix3 (0 : Fin 1) r d) ((ValueIdx.contrEquiv1 D2 2048 rfl rfl).symm k) = ix3 (0 : Fin 1) k d :=
    funext fun a => Fin.ext (by
      match a with
      | ⟨0, _⟩ => exact rhs2_0 _ _
      | ⟨1, _⟩ => exact (rhs2_1 _ _).trans hk
      | ⟨2, _⟩ => exact rhs2_2 _ _)
  rw [el, er]

/-! ## The two row reductions read at a row -/

/-- The bit pattern of −∞ is the bottom of the extended reals. -/
theorem negInf_eq_bot : Ideal.ofBits .f32 0xFF800000#32 = ⊥ := by simp [Ideal.ofBits, Ideal.ieee]

/-- The row sum over the 2048 keys. -/
theorem rowSum_apply (src : FVec Ideal S1x1024x2048 .f32) (hacc : (0x00000000#32 : BitVec 32) = 0x00000000#32) (r : Fin 1024) :
    multiReduction .add [2] S1x1024 src 0x00000000#32 reduces_S1x1024x2048_S1x1024 (.inl rfl) hacc (ix2 (0 : Fin 1) r)
      = ∑ t : Fin 2048, src (ix3 (0 : Fin 1) r t) := by
  refine (Ideal.multiReduction_add_single src 0x00000000#32 reduces_S1x1024x2048_S1x1024 (.inl rfl) hacc (ix2 (0 : Fin 1) r)).trans ?_
  exact Finset.sum_congr rfl fun t _ => congrArg src (funext fun a => Fin.ext (by
    match a with
    | ⟨0, _⟩ => rfl
    | ⟨1, _⟩ => rfl
    | ⟨2, _⟩ => rfl))

/-- The row maximum over the 2048 keys, folded from −∞. -/
theorem rowMax_apply (src : FVec Ideal S1x1024x2048 .f32) (hacc : (0xFF800000#32 : BitVec 32) = 0xFF800000#32) (r : Fin 1024) :
    multiReduction .maximumf [2] S1x1024 src 0xFF800000#32 reduces_S1x1024x2048_S1x1024 (.inl rfl) hacc (ix2 (0 : Fin 1) r)
      = (Finset.univ : Finset (Fin 2048)).fold max ⊥ (fun t => src (ix3 (0 : Fin 1) r t)) := by
  refine (Ideal.multiReduction_maximumf_single src 0xFF800000#32 reduces_S1x1024x2048_S1x1024 (.inl rfl) hacc (ix2 (0 : Fin 1) r)).trans ?_
  have hb : (FloatOps.ofBits (F := Ideal) .f32 0xFF800000#32 : EReal) = ⊥ := negInf_eq_bot
  have hf : (src ∘ reduces_S1x1024x2048_S1x1024.lift (ix2 (0 : Fin 1) r)) = fun t : Fin 2048 => src (ix3 (0 : Fin 1) r t) :=
    funext fun t => congrArg src (funext fun a => Fin.ext (by
      match a with
      | ⟨0, _⟩ => rfl
      | ⟨1, _⟩ => rfl
      | ⟨2, _⟩ => rfl))
  show Finset.fold max (FloatOps.ofBits (F := Ideal) .f32 0xFF800000#32)
      (src ∘ reduces_S1x1024x2048_S1x1024.lift (ix2 (0 : Fin 1) r)) (Finset.univ : Finset (Fin 2048)) = _
  rw [hb, hf]
  rfl

end Cert.KernelIdeal.Block
end
-- ==== Proof.KernelBlock.lean ====
/-
  What one grid point of the attention kernel writes to its output block, as a function of the point's three input
  blocks: the query block x0 [1, 1024, 128], the key block x1 [1, 2048, 128] and the value block x2 [1, 2048, 128].

  The body first resets its three carried buffers: the running maximum m to −∞, the running sum l to 0, the
  accumulator acc to 0 (the key axis of the grid has one step, so every point both resets and finishes). Then, row
  by row r of the query block: the scores s(t) = Σ_f (x0(r, f) · c) · x1(t, f) into a zero accumulator; the new
  maximum max(m, max_t s(t)) with m = −∞; the rescaling factor a = exp(m − new maximum) = exp(−∞ − …); the weights
  w(t) = exp(s(t) − new maximum); l becomes a · l + Σ_t w(t) with l = 0; acc becomes a · acc + Σ_t w(t) · x2(t, d)
  with acc = 0; and the output entry is acc / l. On the extended reals a · 0 = 0 for every a, adding 0 changes
  nothing, and max(−∞, x) = x, so the entry is (Σ_t w(t) · x2(t, d)) / Σ_t w(t) with w the softmax weights of the row
  of query-scaled scores: the weighted mean normalised last.
-/
import proofs.«119949_j64123861729937_2_alg».proof.Proof.Gen.KernelIdeal.Frame
import proofs.«119949_j64123861729937_2_alg».proof.Proof.AttnSpec
import proofs.«119949_j64123861729937_2_alg».proof.Proof.BlockFacts
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Block

open Idealize.ShloMosaic Idealize.ShloMosaic.TcCoe Idealize.SL.Sem Idealize.ShloMosaic.ValueIdx
open Cert.KernelIdeal Cert.KernelIdeal.Gen Cert.Attn Cert.Sdpa

variable {F : FTy → Type} [FloatOps F]

/-- The output block of one grid point, from the point's query, key and value blocks. -/
def blockOut (x0 : Vec F S1x1024x128 .f32) (x1 x2 : Vec F S1x2048x128 .f32) : Vec F S1x1024x128 .f32 :=
  k0_pay4
    (k0_pay2 (k0_pay8 x2) (k0_pay11 x0 x1 k0_pay5 k0_pay5) (k0_pay12 x0 x1 k0_pay5) k0_pay7)
    (k0_pay1 (k0_pay13 x0 x1 k0_pay5 k0_pay5 k0_pay6))

theorem hz3 : (![0, 0, 0] : Fin 3 → Nat) = fun _ => 0 := funext fun a => by fin_cases a <;> rfl

/-- A load of the whole buffer after a list of stores whose LAST store filled the whole buffer reads that store's
    payload, whatever the earlier stores were. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

/-- What the body leaves in the output's staging buffer is that block: its last store fills the buffer with the
    quotient, whose two operands are read back from the accumulator and the running sum the body stored just
    before, each of those from the reset values and the three input blocks. -/
theorem out_A (c : Dev nD) (i : grid0.Coords) (arg3 : Memref sig .tc .vmem S1x1024x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : cond0_0 i) (hc1 : cond0_1 i)
    (x0 : Vec F S1x1024x128 .f32) (x1 : Vec F S1x2048x128 .f32) (x2 : Vec F S1x2048x128 .f32) :
    out0_A_3 c i arg3 harg3 arg4 harg4 arg5 harg5 arg6 harg6 arg7 harg7 arg8 harg8 arg9 harg9 hc0 hc1 x0 x1 x2 = blockOut x0 x1 x2 := by
  unfold out0_A_3
  rw [View.read_writes_eq_canon _ _ _ (cover0_A_3 c i arg3 harg3 arg4 harg4 arg5 harg5 arg6 harg6 arg7 harg7 arg8 harg8 arg9 harg9 hc0 hc1 x0 x1 x2)]
  unfold kernelRun0_A
  dsimp only
  sl_unfold_words
  rw [View.canon_unit_zero hz3]
  simp only [readCov_cons_unit_zero (S := S1x1024x128) _ hz3, readCov_cons_unit_zero (S := S1x1024x1) _ hz3,
    View.readCov_unit_zero (S := S1x1024x128) _ hz3, View.readCov_unit_zero (S := S1x1024x1) _ hz3,
    View.readAt_eq_ld, harg3.read_unread, harg4.read_unread, harg5.read_unread,
    View.ld_unit_zero (S := S1x1024x128) hz3, View.ld_unit_zero (S := S1x2048x128) hz3]
  rfl

/-! ## The payloads at an entry

Each payload is first restated as the body spells it (a definitional equation), then read at an entry by the layout,
reduction and contraction facts above. -/

theorem pay5_apply (j : S1x1024x1.Idx) : k0_pay5 (F := Ideal) j = ⊥ := by
  unfold k0_pay5
  rw [shapeCast_self]
  exact negInf_eq_bot

theorem pay6_apply (j : S1x1024x1.Idx) : k0_pay6 (F := Ideal) j = 0 := by
  unfold k0_pay6
  rw [shapeCast_self]
  exact Ideal.ofBits_zero_f32

theorem pay7_apply (j : S1x1024x128.Idx) : k0_pay7 (F := Ideal) j = 0 := by
  unfold k0_pay7
  rw [shapeCast_self]
  exact Ideal.ofBits_zero_f32

theorem pay1_eq (v : FVec Ideal S1x1024x1 .f32) : k0_pay1 v = v := by
  unfold k0_pay1
  exact shapeCast_self _ _

theorem pay8_apply (v : Vec Ideal S1x2048x128 .f32) (j : S1x2048x128.Idx) : k0_pay8 v j = v j := by
  unfold k0_pay8
  rw [shapeCast_self]
  rfl

/-- The scores as the body spells them: the query block times the scale, against the key block, into zeros. -/
theorem pay9_eq (x0 : Vec Ideal S1x1024x128 .f32) (x1 : Vec Ideal S1x2048x128 .f32) :
    k0_pay9 x0 x1 = matmul D1 none
      (truncf .bf16 (mulf (shapeCast S1x1024x128 x0 shapeCasts_S1x1024x128_S1x1024x128)
        (broadcast S1x1024x128 (Scalar.ofBits .f32 0x3DB504F3#32))) bitsLt_bf16_f32)
      (truncf .bf16 (shapeCast S1x2048x128 x1 shapeCasts_S1x2048x128_S1x2048x128) bitsLt_bf16_f32)
      (constant (F := Ideal) S1x1024x2048 .f32 0x00000000#32) := rfl

/-- The scores: the query row scaled, contracted with key t. -/
theorem pay9_apply (x0 : Vec Ideal S1x1024x128 .f32) (x1 : Vec Ideal S1x2048x128 .f32) (r : Fin 1024) (t : Fin 2048) :
    k0_pay9 x0 x1 (ix3 (0 : Fin 1) r t)
      = scoreIn scale (fun f : Fin 128 => x0 (ix3 (0 : Fin 1) r f)) (fun (t : Fin 2048) (f : Fin 128) => x1 (ix3 (0 : Fin 1) t f)) t := by
  rw [pay9_eq, scores_apply, shapeCast_self, shapeCast_self]
  exact Finset.sum_congr rfl fun f _ => rfl

/-- The new running maximum as the body spells it. -/
theorem pay10_eq (x0 : Vec Ideal S1x1024x128 .f32) (x1 : Vec Ideal S1x2048x128 .f32) (v15 : Vec Ideal S1x1024x1 .f32) :
    k0_pay10 x0 x1 v15 = maximumf v15 (shapeCast S1x1024x1
      (multiReduction .maximumf [2] S1x1024 (k0_pay9 x0 x1) 0xFF800000#32 reduces_S1x1024x2048_S1x1024 (.inl rfl) rfl)
      shapeCasts_S1x1024_S1x1024x1) := rfl

/-- The new running maximum of row r: the old one against the row's maximum score. -/
theorem pay10_apply (x0 : Vec Ideal S1x1024x128 .f32) (x1 : Vec Ideal S1x2048x128 .f32) (v15 : Vec Ideal S1x1024x1 .f32) (r : Fin 1024) :
    k0_pay10 x0 x1 v15 (ix3 (0 : Fin 1) r (0 : Fin 1))
      = max (v15 (ix3 (0 : Fin 1) r (0 : Fin 1))) ((Finset.univ : Finset (Fin 2048)).fold max ⊥ (fun t => k0_pay9 x0 x1 (ix3 (0 : Fin 1) r t))) := by
  rw [pay10_eq, maximumf_apply]
  exact congrArg (max (v15 (ix3 (0 : Fin 1) r (0 : Fin 1)))) ((colCast_apply _ r).trans (rowMax_apply (k0_pay9 x0 x1) rfl r))

/-- The weights as the body spells them. -/
theorem pay12_eq (x0 : Vec Ideal S1x1024x128 .f32) (x1 : Vec Ideal S1x2048x128 .f32) (v15 : Vec Ideal S1x1024x1 .f32) :
    k0_pay12 x0 x1 v15 = exp (subf (k0_pay9 x0 x1)
      (broadcastTo S1x1024x2048 (k0_pay10 x0 x1 v15) broadcasts_S1x1024x1_S1x1024x2048)) := rfl

/-- The weights of row r. -/
theorem pay12_apply (x0 : Vec Ideal S1x1024x128 .f32) (x1 : Vec Ideal S1x2048x128 .f32) (v15 : Vec Ideal S1x1024x1 .f32) (r : Fin 1024) (t : Fin 2048) :
    k0_pay12 x0 x1 v15 (ix3 (0 : Fin 1) r t)
      = Ideal.exp (k0_pay9 x0 x1 (ix3 (0 : Fin 1) r t) - k0_pay10 x0 x1 v15 (ix3 (0 : Fin 1) r (0 : Fin 1))) := by
  rw [pay12_eq]
  exact congrArg (fun z => Ideal.exp (k0_pay9 x0 x1 (ix3 (0 : Fin 1) r t) - z)) (bcast2048_apply (k0_pay10 x0 x1 v15) r t)

/-- The rescaling factor of row r. -/
theorem pay11_apply (x0 : Vec Ideal S1x1024x128 .f32) (x1 : Vec Ideal S1x2048x128 .f32) (v15 v19 : Vec Ideal S1x1024x1 .f32) (j : S1x1024x1.Idx) :
    k0_pay11 x0 x1 v15 v19 j = Ideal.exp (v19 j - k0_pay10 x0 x1 v15 j) := rfl

/-- The new running sum as the body spells it. -/
theorem pay13_eq (x0 : Vec Ideal S1x1024x128 .f32) (x1 : Vec Ideal S1x2048x128 .f32) (v15 v19 v25 : Vec Ideal S1x1024x1 .f32) :
    k0_pay13 x0 x1 v15 v19 v25 = addf (mulf (k0_pay11 x0 x1 v15 v19) v25) (shapeCast S1x1024x1
      (multiReduction .add [2] S1x1024 (k0_pay12 x0 x1 v15) 0x00000000#32 reduces_S1x1024x2048_S1x1024 (.inl rfl) rfl)
      shapeCasts_S1x1024_S1x1024x1) := rfl

/-- The new running sum of row r. -/
theorem pay13_apply (x0 : Vec Ideal S1x1024x128 .f32) (x1 : Vec Ideal S1x2048x128 .f32) (v15 v19 v25 : Vec Ideal S1x1024x1 .f32) (r : Fin 1024) :
    k0_pay13 x0 x1 v15 v19 v25 (ix3 (0 : Fin 1) r (0 : Fin 1))
      = k0_pay11 x0 x1 v15 v19 (ix3 (0 : Fin 1) r (0 : Fin 1)) * v25 (ix3 (0 : Fin 1) r (0 : Fin 1))
        + ∑ t : Fin 2048, k0_pay12 x0 x1 v15 (ix3 (0 : Fin 1) r t) := by
  rw [pay13_eq, addf_apply, mulf_apply]
  exact congrArg (k0_pay11 x0 x1 v15 v19 (ix3 (0 : Fin 1) r (0 : Fin 1)) * v25 (ix3 (0 : Fin 1) r (0 : Fin 1)) + ·)
    ((colCast_apply _ r).trans (rowSum_apply (k0_pay12 x0 x1 v15) rfl r))

/-- The new accumulator as the body spells it. -/
theorem pay2_eq (v13 : FVec Ideal S1x2048x128 .bf16) (v21 : FVec Ideal S1x1024x1 .f32) (v24 : FVec Ideal S1x1024x2048 .f32)
    (v33 : Vec Ideal S1x1024x128 .f32) :
    k0_pay2 v13 v21 v24 v33 = shapeCast S1x1024x128
      (addf (mulf (broadcastTo S1x1024x128 v21 broadcasts_S1x1024x1_S1x1024x128) v33)
        (matmul D2 none (truncf .bf16 v24 bitsLt_bf16_f32) v13 (constant (F := Ideal) S1x1024x128 .f32 0x00000000#32)))
      shapeCasts_S1x1024x128_S1x1024x128 := rfl

/-- The new accumulator at (r, d). -/
theorem pay2_apply (v13 : FVec Ideal S1x2048x128 .bf16) (v21 : FVec Ideal S1x1024x1 .f32) (v24 : FVec Ideal S1x1024x2048 .f32)
    (v33 : Vec Ideal S1x1024x128 .f32) (r : Fin 1024) (d : Fin 128) :
    k0_pay2 v13 v21 v24 v33 (ix3 (0 : Fin 1) r d)
      = v21 (ix3 (0 : Fin 1) r (0 : Fin 1)) * v33 (ix3 (0 : Fin 1) r d) + ∑ t : Fin 2048, v24 (ix3 (0 : Fin 1) r t) * v13 (ix3 (0 : Fin 1) t d) := by
  rw [pay2_eq, shapeCast_self, addf_apply, mulf_apply, bcast128_apply, pv_apply]
  exact congrArg (v21 (ix3 (0 : Fin 1) r (0 : Fin 1)) * v33 (ix3 (0 : Fin 1) r d) + ·) (Finset.sum_congr rfl fun t _ => rfl)

/-- The output as the body spells it. -/
theorem pay4_eq (v48 : Vec Ideal S1x1024x128 .f32) (v49 : Vec Ideal S1x1024x1 .f32) :
    k0_pay4 v48 v49 = divf v48 (broadcastTo S1x1024x128 v49 broadcasts_S1x1024x1_S1x1024x128) := rfl

/-- The output at (r, d): the accumulator over the running sum. -/
theorem pay4_apply (v48 : Vec Ideal S1x1024x128 .f32) (v49 : Vec Ideal S1x1024x1 .f32) (r : Fin 1024) (d : Fin 128) :
    k0_pay4 v48 v49 (ix3 (0 : Fin 1) r d) = Ideal.div (v48 (ix3 (0 : Fin 1) r d)) (v49 (ix3 (0 : Fin 1) r (0 : Fin 1))) := by
  rw [pay4_eq, divf_apply]
  exact congrArg (Ideal.div (v48 (ix3 (0 : Fin 1) r d))) (bcast128_apply v49 r d)

/-- Entry (r, d) of the block, over the extended reals: the weighted mean of column d of the value block, normalised
    last, under the softmax weights of row r's query-scaled scores. -/
theorem blockOut_apply (x0 : Vec Ideal S1x1024x128 .f32) (x1 x2 : Vec Ideal S1x2048x128 .f32) (r : Fin 1024) (d : Fin 128) :
    blockOut (F := Ideal) x0 x1 x2 (ix3 (0 : Fin 1) r d)
      = normLast (scoreIn scale (fun f : Fin 128 => x0 (ix3 (0 : Fin 1) r f)) (fun (t : Fin 2048) (f : Fin 128) => x1 (ix3 (0 : Fin 1) t f)))
          (fun t : Fin 2048 => x2 (ix3 (0 : Fin 1) t d)) := by
  have hs : (fun t : Fin 2048 => k0_pay9 x0 x1 (ix3 (0 : Fin 1) r t))
      = scoreIn scale (fun f : Fin 128 => x0 (ix3 (0 : Fin 1) r f)) (fun (t : Fin 2048) (f : Fin 128) => x1 (ix3 (0 : Fin 1) t f)) :=
    funext fun t => pay9_apply x0 x1 r t
  have hm : k0_pay10 x0 x1 (k0_pay5 (F := Ideal)) (ix3 (0 : Fin 1) r (0 : Fin 1))
      = (Finset.univ : Finset (Fin 2048)).fold max ⊥
          (scoreIn scale (fun f : Fin 128 => x0 (ix3 (0 : Fin 1) r f)) (fun (t : Fin 2048) (f : Fin 128) => x1 (ix3 (0 : Fin 1) t f))) := by
    rw [pay10_apply, pay5_apply, max_bot_left, hs]
  have hw : ∀ t : Fin 2048, k0_pay12 x0 x1 (k0_pay5 (F := Ideal)) (ix3 (0 : Fin 1) r t)
      = weight (scoreIn scale (fun f : Fin 128 => x0 (ix3 (0 : Fin 1) r f)) (fun (t : Fin 2048) (f : Fin 128) => x1 (ix3 (0 : Fin 1) t f))) t := fun t => by
    rw [pay12_apply, hm, pay9_apply]
    rfl
  unfold blockOut
  rw [pay4_apply, pay2_apply, pay1_eq, pay13_apply, pay7_apply, pay6_apply]
  simp only [mul_zero, zero_add]
  unfold normLast
  simp only [hw, pay8_apply]

end Cert.KernelIdeal.Block

end
-- ==== Proof.KernelArray.lean ====
/-
  From one grid point's block to the whole [32, 2048, 128] array the attention region leaves.

  The region runs over a grid of 32 × 2 × 1 points. Point t works on head-batch bh = t / 2 and on the half
  t % 2 of the 2048 query rows: its query block and its output block are rows (t % 2) · 1024 … (t % 2) · 1024 + 1023
  of plane bh, its key block and its value block are the whole plane bh. Each point writes its output block back, and
  the 64 output blocks tile the array, so the array ends as ONE function of the three arrays Q, K, W the region finds:

    out(bh, R, d) = (Σ_t w(t) · W(bh, t, d)) / Σ_t w(t),   w(t) = exp(s(t) − max_t' s(t')),
    s(t) = Σ_f (Q(bh, R, f) · c) · K(bh, t, f),

  the weighted mean of column d of the values of plane bh, normalised last, under the softmax weights of the
  query-scaled scores of row R. Entry (bh, R, d) is written by the point bh · 2 + R / 1024, at row R % 1024 of its block.
-/
import proofs.«119949_j64123861729937_2_alg».proof.Proof.KernelBlock
import Idealize.ShloMosaic.Lib.Pipeline.Value
import Idealize.ShloMosaic.Lib.ValueIdx
import Idealize.ShloMosaic.Lib.ValueLayout
import Idealize.ShloMosaic.Lib.Tactic

noncomputable section

namespace Cert.KernelIdeal.ArrValue

open Idealize.ShloMosaic Idealize.ShloMosaic.TcCoe Idealize.SL.Sem Idealize.ShloMosaic.ValueIdx
open Idealize.ShloMosaic.Pipeline (Dat)
open Cert.KernelIdeal Cert.KernelIdeal.Gen Cert.Attn Cert.Sdpa

variable (m : (ℓ : Loc nD τ sig) → Buf (Elt Ideal) ℓ) (ρ : Dev nD → PrngReg)

/-! ## The region's result as one function of the arrays it finds -/

/-- A [32, 2048, 128] array of extended reals: head-batch, sequence position, feature. -/
abbrev Arr3 : Type := FVec Ideal S32x2048x128 .f32

/-- Attention plane by plane: entry (bh, R, d) is the weighted mean of column d of plane bh of the values `W`,
    normalised last, under the softmax weights of the scores of query row R of plane bh of `Q` (scaled first) against
    the keys of plane bh of `K`. -/
def regionOut (Q K W : Arr3) : Arr3 := fun i =>
  normLast
    (scoreIn scale
      (fun f : Fin 128 => Q (ix3 (⟨(i 0).val, (i 0).isLt⟩ : Fin 32) (⟨(i 1).val, (i 1).isLt⟩ : Fin 2048) f))
      (fun (t : Fin 2048) (f : Fin 128) => K (ix3 (⟨(i 0).val, (i 0).isLt⟩ : Fin 32) t f)))
    (fun t : Fin 2048 => W (ix3 (⟨(i 0).val, (i 0).isLt⟩ : Fin 32) t (⟨(i 2).val, (i 2).isLt⟩ : Fin 128)))

/-- The same at an index given by its coordinates. -/
theorem regionOut_ix3 (Q K W : Arr3) (bh : Fin 32) (R : Fin 2048) (d : Fin 128) :
    regionOut Q K W (ix3 bh R d)
      = normLast (scoreIn scale (fun f : Fin 128 => Q (ix3 bh R f)) (fun (t : Fin 2048) (f : Fin 128) => K (ix3 bh t f)))
          (fun t : Fin 2048 => W (ix3 bh t d)) := rfl

/-! ## Where each point's blocks sit -/

/-- The four index maps over the 64 grid points: point t has plane t / 2 in every window; the query and the output
    window have row block t % 2, the key and the value window row block 0; the feature axis is never cut. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- What the body leaves in the output's staging buffer at point t is the block function of the point's three
    input blocks. -/
theorem outsAt_eq (c : Dev nD) (t : Fin cfg0.N) :
    outsAt0 m c t = Block.blockOut (iblk m c 0 t) (iblk m c 1 t) (iblk m c 2 t) := by
  unfold outsAt0
  exact Block.out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (hcond0_0 t) (hcond0_1 t) (iblk m c 0 t) (iblk m c 1 t) (iblk m c 2 t)

/-- Row r of point t's query block is row (t % 2) · 1024 + r of plane t / 2 of the query array (on each axis a
    block's element sits at block index × block size + its coordinate in the block). -/
theorem qblk_apply (c : Dev nD) (t : Fin cfg0.N) (r : Fin 1024) (f : Fin 128) (bh : Fin 32) (R : Fin 2048)
    (hbh : bh.val = t.val / 2) (hR : R.val = t.val % 2 * 1024 + r.val) :
    (iblk m c 0 t : Vec Ideal S1x1024x128 .f32) (ix3 (0 : Fin 1) r f)
      = (V m c main_v0 : S32x2048x128.Idx → EReal) (ix3 bh R f) := by
  obtain ⟨e0, e1, e2, -⟩ := idx_facts t
  show V m c main_v0 (((cfg0.win 0).blk t).view.emb (ix3 (0 : Fin 1) r f)) = V m c main_v0 (ix3 bh R f)
  refine congrArg (V m c main_v0) ?_
  funext a; apply Fin.ext
  match a with
  | ⟨0, _⟩ => show win0_0.index t (0 : Fin 3) * 1 + 1 * (0 : Fin 1).val = bh.val; rw [e0, hbh]; simp
  | ⟨1, _⟩ => show win0_0.index t (1 : Fin 3) * 1024 + 1 * r.val = R.val; rw [e1, hR]; omega
  | ⟨2, _⟩ => show win0_0.index t (2 : Fin 3) * 128 + 1 * f.val = f.val; rw [e2]; omega

/-- Row s of point t's key block is row s of plane t / 2 of the key array. -/
theorem kblk_apply (c : Dev nD) (t : Fin cfg0.N) (s : Fin 2048) (f : Fin 128) (bh : Fin 32)
    (hbh : bh.val = t.val / 2) :
    (iblk m c 1 t : Vec Ideal S1x2048x128 .f32) (ix3 (0 : Fin 1) s f)
      = (V m c main_v1 : S32x2048x128.Idx → EReal) (ix3 bh s f) := by
  obtain ⟨-, -, -, e0, e1, e2, -⟩ := idx_facts t
  show V m c main_v1 (((cfg0.win 1).blk t).view.emb (ix3 (0 : Fin 1) s f)) = V m c main_v1 (ix3 bh s f)
  refine congrArg (V m c main_v1) ?_
  funext a; apply Fin.ext
  match a with
  | ⟨0, _⟩ => show win0_1.index t (0 : Fin 3) * 1 + 1 * (0 : Fin 1).val = bh.val; rw [e0, hbh]; simp
  | ⟨1, _⟩ => show win0_1.index t (1 : Fin 3) * 2048 + 1 * s.val = s.val; rw [e1]; omega
  | ⟨2, _⟩ => show win0_1.index t (2 : Fin 3) * 128 + 1 * f.val = f.val; rw [e2]; omega

/-- Row s of point t's value block is row s of plane t / 2 of the value array. -/
theorem vblk_apply (c : Dev nD) (t : Fin cfg0.N) (s : Fin 2048) (f : Fin 128) (bh : Fin 32)
    (hbh : bh.val = t.val / 2) :
    (iblk m c 2 t : Vec Ideal S1x2048x128 .f32) (ix3 (0 : Fin 1) s f)
      = (V m c main_v2 : S32x2048x128.Idx → EReal) (ix3 bh s f) := by
  obtain ⟨-, -, -, -, -, -, e0, e1, e2, -⟩ := idx_facts t
  show V m c main_v2 (((cfg0.win 2).blk t).view.emb (ix3 (0 : Fin 1) s f)) = V m c main_v2 (ix3 bh s f)
  refine congrArg (V m c main_v2) ?_
  funext a; apply Fin.ext
  match a with
  | ⟨0, _⟩ => show win0_2.index t (0 : Fin 3) * 1 + 1 * (0 : Fin 1).val = bh.val; rw [e0, hbh]; simp
  | ⟨1, _⟩ => show win0_2.index t (1 : Fin 3) * 2048 + 1 * s.val = s.val; rw [e1]; omega
  | ⟨2, _⟩ => show win0_2.index t (2 : Fin 3) * 128 + 1 * f.val = f.val; rw [e2]; omega

/-- Row r of point t's output block sits at row (t % 2) · 1024 + r of plane t / 2 of the output array. -/
theorem oblk_emb (t : Fin cfg0.N) (r : Fin 1024) (d : Fin 128) (bh : Fin 32) (R : Fin 2048)
    (hbh : bh.val = t.val / 2) (hR : R.val = t.val % 2 * 1024 + r.val) :
    ((cfg0.win 3).blk t).view.emb (ix3 (0 : Fin 1) r d) = (ix3 bh R d : S32x2048x128.Idx) := by
  obtain ⟨-, -, -, -, -, -, -, -, -, e0, e1, e2⟩ := idx_facts t
  funext a; apply Fin.ext
  match a with
  | ⟨0, _⟩ => show win0_3.index t (0 : Fin 3) * 1 + 1 * (0 : Fin 1).val = bh.val; rw [e0, hbh]; simp
  | ⟨1, _⟩ => show win0_3.index t (1 : Fin 3) * 1024 + 1 * r.val = R.val; rw [e1, hR]; omega
  | ⟨2, _⟩ => show win0_3.index t (2 : Fin 3) * 128 + 1 * d.val = d.val; rw [e2]; omega

/-! ## What a point writes back, the cover, the array -/

/-- What point t writes back is block t of `regionOut` of the three arrays the region finds: entry (r, d) of the body's
    block is the normalised-last weighted mean over the point's blocks, and the point's blocks are rows of plane t / 2. -/
theorem flushed_eq (c : Dev nD) (t : Fin cfg0.N) :
    (dats m 0 c).flushed 3 t
      = ((cfg0.win 3).blk t).view.read (Elt Ideal) (regionOut (V m c main_v0) (V m c main_v1) (V m c main_v2)) := by
  show (cfg0.win 3).cut (grid0.coords t) ((dats m 0 c).after 3 t) = _
  rw [after0_3, outsAt_eq]
  have hN : grid0.N = 64 := N_0
  have ht : t.val < 64 := hN ▸ t.isLt
  funext j
  obtain ⟨p, r, d, rfl⟩ : ∃ (p : Fin 1) (r : Fin 1024) (d : Fin 128), j = ix3 p r d := ⟨j 0, j 1, j 2, eq_ix3 j⟩
  obtain rfl : p = 0 := Subsingleton.elim _ _
  show Block.blockOut (iblk m c 0 t) (iblk m c 1 t) (iblk m c 2 t) (ix3 (0 : Fin 1) r d)
    = regionOut (V m c main_v0) (V m c main_v1) (V m c main_v2) (((cfg0.win 3).blk t).view.emb (ix3 (0 : Fin 1) r d))
  have hbh : t.val / 2 < 32 := by omega
  have hR : t.val % 2 * 1024 + r.val < 2048 := by have := r.isLt; omega
  rw [oblk_emb t r d ⟨t.val / 2, hbh⟩ ⟨t.val % 2 * 1024 + r.val, hR⟩ rfl rfl, regionOut_ix3]
  refine (Block.blockOut_apply (iblk m c 0 t) (iblk m c 1 t) (iblk m c 2 t) r d).trans ?_
  have hq : (fun f : Fin 128 => (iblk m c 0 t : Vec Ideal S1x1024x128 .f32) (ix3 (0 : Fin 1) r f))
      = fun f : Fin 128 => (V m c main_v0 : S32x2048x128.Idx → EReal) (ix3 (⟨t.val / 2, hbh⟩ : Fin 32) (⟨t.val % 2 * 1024 + r.val, hR⟩ : Fin 2048) f) :=
    funext fun f => qblk_apply m c t r f _ _ rfl rfl
  have hk : (fun (s : Fin 2048) (f : Fin 128) => (iblk m c 1 t : Vec Ideal S1x2048x128 .f32) (ix3 (0 : Fin 1) s f))
      = fun (s : Fin 2048) (f : Fin 128) => (V m c main_v1 : S32x2048x128.Idx → EReal) (ix3 (⟨t.val / 2, hbh⟩ : Fin 32) s f) :=
    funext fun s => funext fun f => kblk_apply m c t s f _ rfl
  have hv : (fun s : Fin 2048 => (iblk m c 2 t : Vec Ideal S1x2048x128 .f32) (ix3 (0 : Fin 1) s d))
      = fun s : Fin 2048 => (V m c main_v2 : S32x2048x128.Idx → EReal) (ix3 (⟨t.val / 2, hbh⟩ : Fin 32) s d) :=
    funext fun s => vblk_apply m c t s d _ rfl
  exact congr (congrArg normLast (congr (congrArg (scoreIn scale) hq) hk)) hv

/-- An index of the output array is in point t's block iff on each axis it lies in the block's range. -/
theorem mem_blk (t : Fin cfg0.N) (i : S32x2048x128.Idx) :
    i ∈ ((cfg0.win 3).blk t).view.set
      ↔ ∀ a : Fin 3, win0_3.index t a * S1x1024x128.size a ≤ (i a).val
          ∧ (i a).val < win0_3.index t a * S1x1024x128.size a + S1x1024x128.size a := by
  show i ∈ ((View.whole main_v3).slice (win0_3.rect t)).set ↔ _
  rw [View.set_slice_whole, Rect.mem_set_unit]
  exact Iff.rfl

/-- Every index (bh, R, d) of the output array is in the block of the point bh · 2 + R / 1024, and that point writes
    its block back. -/
theorem cover (i : S32x2048x128.Idx) :
    ∃ t : Fin cfg0.N, (cfg0.win 3).flush t = true ∧ i ∈ ((cfg0.win 3).blk t).view.set := by
  have hN : grid0.N = 64 := N_0
  have h0 : (i 0).val < 32 := (i 0).isLt
  have h1 : (i 1).val < 2048 := (i 1).isLt
  have h2 : (i 2).val < 128 := (i 2).isLt
  obtain ⟨t, htv⟩ : ∃ t : Fin cfg0.N, t.val = (i 0).val * 2 + (i 1).val / 1024 :=
    ⟨⟨(i 0).val * 2 + (i 1).val / 1024, by show _ < grid0.N; rw [hN]; omega⟩, rfl⟩
  obtain ⟨-, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1024 ≤ (i 1).val ∧ (i 1).val < win0_3.index t (1 : Fin 3) * 1024 + 1024
    rw [e1]; omega
  | ⟨2, _⟩ =>
    show win0_3.index t (2 : Fin 3) * 128 ≤ (i 2).val ∧ (i 2).val < win0_3.index t (2 : Fin 3) * 128 + 128
    rw [e2]; omega

/-- So after the last point the output array is `regionOut` of the three arrays the region found. -/
theorem final (c : Dev nD) :
    (dats m 0 c).arrAt 3 cfg0.N = regionOut (V m c main_v0) (V m c main_v1) (V m c main_v2) :=
  (dats m 0 c).arrAt_eq_of_cover 3 (regionOut (V m c main_v0) (V m c main_v1) (V m c main_v2))
    (fun t _ => flushed_eq m c t) cover

end Cert.KernelIdeal.ArrValue

end
-- ==== Proof.KernelRun.lean ====
/-
  From the array the attention region leaves to the program's result and its run.

  The program reshapes each argument [2, 16, 2048, 128] to [32, 2048, 128], runs the region on the three reshaped
  arrays, and reshapes the region's [32, 2048, 128] result back to [2, 16, 2048, 128]. A reshape keeps the row-major
  position, so entry (bh, R, d) of a reshaped argument is entry (bh / 16, bh % 16, R, d) of the argument, and entry
  (b, h, R, d) of the result is entry (b · 16 + h, R, d) of the region's array: plane b · 16 + h IS head (b, h).
  The region's array is attention plane by plane, so the result is attention head by head — the query scaled first,
  the weighted sum of the values normalised last — of the three arguments, which the run leaves as launched.
-/
import proofs.«119949_j64123861729937_2_alg».proof.Proof.KernelArray
import Idealize.ShloMosaic.Lib.Pipeline.Value
import Idealize.ShloMosaic.Lib.ValueIdx
import Idealize.ShloMosaic.Lib.ValueLayout
import Idealize.ShloMosaic.Lib.Tactic

noncomputable section

namespace Cert.KernelIdeal.ArrValue

open Idealize.ShloMosaic Idealize.ShloMosaic.TcCoe Idealize.SL.Sem Idealize.ShloMosaic.ValueIdx
open Idealize.ShloMosaic.Pipeline (Dat)
open Cert.KernelIdeal Cert.KernelIdeal.Gen Cert.Attn Cert.Sdpa

variable (m : (ℓ : Loc nD τ sig) → Buf (Elt Ideal) ℓ) (ρ : Dev nD → PrngReg)

/-! ## The reshapes at an index -/

/-- Merging batch and head: entry (b · 16 + h, R, d) of the reshaped array is entry (b, h, R, d) of the array. -/
theorem mergedHeads_apply (x : Arr) (bh : Fin 32) (R : Fin 2048) (d : Fin 128) (b : Fin 2) (h : Fin 16)
    (hbh : bh.val = b.val * 16 + h.val) :
    shapeCast S32x2048x128 x shapeCasts_S2x16x2048x128_S32x2048x128 (ix3 bh R d) = x (ix4 b h R d) := by
  refine shapeCast_apply x shapeCasts_S2x16x2048x128_S32x2048x128 (ix3 bh R d) (ix4 b h R d) ?_
  rw [Shape.rowMajor_val_four, Shape.rowMajor_val_three]
  show ((b.val * 16 + h.val) * 2048 + R.val) * 128 + d.val = (bh.val * 2048 + R.val) * 128 + d.val
  rw [hbh]

/-- Splitting them again: entry (b, h, R, d) of the array reshaped back is entry (b · 16 + h, R, d). -/
theorem splitHeads_apply (y : Arr3) (b : Fin 2) (h : Fin 16) (R : Fin 2048) (d : Fin 128) (bh : Fin 32)
    (hbh : bh.val = b.val * 16 + h.val) :
    shapeCast S2x16x2048x128 y shapeCasts_S32x2048x128_S2x16x2048x128 (ix4 b h R d) = y (ix3 bh R d) := by
  refine shapeCast_apply y shapeCasts_S32x2048x128_S2x16x2048x128 (ix4 b h R d) (ix3 bh R d) ?_
  rw [Shape.rowMajor_val_four, Shape.rowMajor_val_three]
  show (bh.val * 2048 + R.val) * 128 + d.val = ((b.val * 16 + h.val) * 2048 + R.val) * 128 + d.val
  rw [hbh]

/-- Attention plane by plane of the three merged arrays, split again, is attention head by head of the arrays. -/
theorem merged_regionOut (q k v : Arr) :
    shapeCast S2x16x2048x128
        (regionOut (shapeCast S32x2048x128 q shapeCasts_S2x16x2048x128_S32x2048x128)
          (shapeCast S32x2048x128 k shapeCasts_S2x16x2048x128_S32x2048x128)
          (shapeCast S32x2048x128 v shapeCasts_S2x16x2048x128_S32x2048x128))
        shapeCasts_S32x2048x128_S2x16x2048x128
      = attnLast q k v := by
  funext i
  obtain ⟨b, h, R, d, rfl⟩ : ∃ (b : Fin 2) (h : Fin 16) (R : Fin 2048) (d : Fin 128), i = ix4 b h R d :=
    ⟨i 0, i 1, i 2, i 3, eq_ix4 i⟩
  have hbh : b.val * 16 + h.val < 32 := by have := b.isLt; have := h.isLt; omega
  rw [splitHeads_apply _ b h R d ⟨b.val * 16 + h.val, hbh⟩ rfl, regionOut_ix3, attnLast_ix4]
  unfold lastAt qRow kMat vCol
  have hq : (fun f : Fin 128 => shapeCast S32x2048x128 q shapeCasts_S2x16x2048x128_S32x2048x128 (ix3 (⟨b.val * 16 + h.val, hbh⟩ : Fin 32) R f))
      = fun f : Fin 128 => q (ix4 b h R f) := funext fun f => mergedHeads_apply q _ R f b h rfl
  have hk : (fun (t : Fin 2048) (f : Fin 128) => shapeCast S32x2048x128 k shapeCasts_S2x16x2048x128_S32x2048x128 (ix3 (⟨b.val * 16 + h.val, hbh⟩ : Fin 32) t f))
      = fun (t : Fin 2048) (f : Fin 128) => k (ix4 b h t f) := funext fun t => funext fun f => mergedHeads_apply k _ t f b h rfl
  have hv : (fun t : Fin 2048 => shapeCast S32x2048x128 v shapeCasts_S2x16x2048x128_S32x2048x128 (ix3 (⟨b.val * 16 + h.val, hbh⟩ : Fin 32) t d))
      = fun t : Fin 2048 => v (ix4 b h t d) := funext fun t => mergedHeads_apply v _ t d b h rfl
  exact congr (congrArg normLast (congr (congrArg (scoreIn scale) hq) hk)) hv

/-! ## The arrays around the region -/

/-- The region finds the query array as the first argument with batch and head merged. -/
theorem V_main_v0 (c : Dev nD) :
    (V m c main_v0 : S32x2048x128.Idx → EReal)
      = shapeCast S32x2048x128 (m ((c : Thread nD τ).loc main_arg0)) shapeCasts_S2x16x2048x128_S32x2048x128 := by
  show StableHlo.after hostOps0 (fun b => m (c, b)) (Proc.devRef .tc main_v0) = _
  after_results; rfl

/-- The region finds the key array as the second argument with batch and head merged. -/
theorem V_main_v1 (c : Dev nD) :
    (V m c main_v1 : S32x2048x128.Idx → EReal)
      = shapeCast S32x2048x128 (m ((c : Thread nD τ).loc main_arg1)) shapeCasts_S2x16x2048x128_S32x2048x128 := by
  show StableHlo.after hostOps0 (fun b => m (c, b)) (Proc.devRef .tc main_v1) = _
  after_results; rfl

/-- The region finds the value array as the third argument with batch and head merged. -/
theorem V_main_v2 (c : Dev nD) :
    (V m c main_v2 : S32x2048x128.Idx → EReal)
      = shapeCast S32x2048x128 (m ((c : Thread nD τ).loc main_arg2)) shapeCasts_S2x16x2048x128_S32x2048x128 := by
  show StableHlo.after hostOps0 (fun b => m (c, b)) (Proc.devRef .tc main_v2) = _
  after_results; rfl

/-- The result buffer ends as the region's final array with batch and head split again. -/
theorem tail_main_v4 (c : Dev nD) :
    (Pipeline.afterTail₀ cfgs (dats m) 0 (V0 m) [hostOps1] c main_v4 : S2x16x2048x128.Idx → EReal)
      = shapeCast S2x16x2048x128 (regionOut (V m c main_v0) (V m c main_v1) (V m c main_v2))
          shapeCasts_S32x2048x128_S2x16x2048x128 := by
  unfold Pipeline.afterTail₀
  show StableHlo.after hostOps1 _ (Proc.devRef .tc main_v4) = _
  after_results
  rw [(Pipeline.withArrays_arr spec0 launch0.win.arr_inj c _ _ 3).trans (final m c)]
  rfl

/-- So it ends as attention, query scaled first and normalised last, of the three arguments as launched. -/
theorem result_eq (c : Dev nD) :
    Pipeline.afterTail₀ cfgs (dats m) 0 (V0 m) [hostOps1] c main_v4
      = attnLast (m ((c : Thread nD τ).loc main_arg0)) (m ((c : Thread nD τ).loc main_arg1))
          (m ((c : Thread nD τ).loc main_arg2)) := by
  refine (tail_main_v4 m c).trans ?_
  rw [V_main_v0, V_main_v1, V_main_v2]
  exact merged_regionOut _ _ _

/-! ## The run -/

/-- From any memory with zero counters every weakly fair execution of the program terminates with the result buffer
    at attention (query scaled first, normalised last) of the three arguments' launch contents, and the three
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.Sdpa.attnLast (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrValue

end
-- ==== Proof.lean ====
/-
  Scaled-dot-product attention over query, key and value arrays of shape [2, 16, 2048, 128]: a kernel that walks the
  32 heads and the two halves of the 2048 query rows, against the reference that forms all the scores, takes a softmax
  along the keys and contracts with the values.

  For each head, query row r and value column d, the kernel scales the query row by c (the binary32 number nearest
  1/√128), contracts it with every key into the scores s(t), takes m = max_t s(t), the weights w(t) = exp(s(t) − m),
  and writes (Σ_t w(t) · v(t, d)) / Σ_t w(t); its running maximum, sum and accumulator start at −∞, 0 and 0 and meet
  one block of keys only, so their rescaling factor multiplies zeros and drops out. The reference contracts first and
  scales after, s(t) = (Σ_f q(f) · k(t, f)) · c, takes the same maximum and weights, normalises each weight,
  w(t) / Σ_t' w(t'), and then contracts with the values. Over the extended reals, at finite inputs, the two score
  rows are one row of reals (the scale moves across the finite sum), the maximum and the weights are real, the sum
  of the weights is a positive real, and dividing the weighted sum by it equals summing the divided weights:
  distributivity. That is the algebraic claim. The kernel's run, the reference's run and the finiteness of the
  inputs under the precondition are the modules imported below; the idealization rewrote nothing, so what it
  preserves is trivially preserved; the three frames are the runs with the results dropped.
-/
import proofs.«119949_j64123861729937_2_alg».proof.Defs
import proofs.«119949_j64123861729937_2_alg».proof.Proof.Gen.Kernel
import proofs.«119949_j64123861729937_2_alg».proof.Proof.Gen.Kernel.Skeleton
import proofs.«119949_j64123861729937_2_alg».proof.Proof.Gen.Kernel.Launch
import proofs.«119949_j64123861729937_2_alg».proof.Proof.Gen.Kernel.Points
import proofs.«119949_j64123861729937_2_alg».proof.Proof.Gen.Kernel.Frame
import proofs.«119949_j64123861729937_2_alg».proof.Proof.Gen.KernelIdeal
import proofs.«119949_j64123861729937_2_alg».proof.Proof.Gen.KernelIdeal.Skeleton
import proofs.«119949_j64123861729937_2_alg».proof.Proof.Gen.KernelIdeal.Launch
import proofs.«119949_j64123861729937_2_alg».proof.Proof.Gen.KernelIdeal.Points
import proofs.«119949_j64123861729937_2_alg».proof.Proof.Gen.KernelIdeal.Frame
import proofs.«119949_j64123861729937_2_alg».proof.Proof.Gen.ReferenceIdeal
import proofs.«119949_j64123861729937_2_alg».proof.Proof.Gen.Pre_finite_inputs
import proofs.«119949_j64123861729937_2_alg».proof.Proof.Gen.ReferenceIdeal.Run
import proofs.«119949_j64123861729937_2_alg».proof.Proof.Gen.ReferenceIdeal.Read
import proofs.«119949_j64123861729937_2_alg».proof.Proof.AttnSpec
import proofs.«119949_j64123861729937_2_alg».proof.Proof.RefValue
import proofs.«119949_j64123861729937_2_alg».proof.Proof.Finite
import proofs.«119949_j64123861729937_2_alg».proof.Proof.KernelRun
import Idealize.ShloMosaic.Adequacy
import Idealize.ShloMosaic.Init

noncomputable section

namespace Cert.Proof

open Idealize.ShloMosaic Idealize.SL.Sem

/-- The two idealized programs end with equal results: the kernel's result array is the attention output with the
    query scaled first and the weighted sum normalised last; the reference's is the output with the contraction
    scaled and each weight normalised first, of arguments that agree; at the finite inputs the precondition grants
    these are one array. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Sdpa.attnLast
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Proof.Finite.finite_of_pre m hpre c
  rw [Cert.ReferenceIdeal.Read.val_main_v14_eq, Cert.ReferenceIdeal.RefValue.ref_eq, (hagree c).1, (hagree c).2.1,
    (hagree c).2.2]
  exact (Cert.Sdpa.attnLast_eq_attnFirst _ _ _ h0 h1 h2).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
